-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 22
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S128x128, .f32⟩
  | .hbm, ⟨19, _⟩ => ⟨S128x128, .bf16⟩
  | .hbm, ⟨20, _⟩ => ⟨S1x128, .f32⟩
  | .hbm, ⟨21, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S128x128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Payload.lean ====
/-
  The kernel body's arithmetic at one entry of its block. The body multiplies a block of 5000 rows of aggregated
  features by the 128 × 128 matrix it is handed, into a zero accumulator, adds the one bias row to every row and takes
  the maximum with zero. Read on the extended reals at row `p`, column `q` of the block:
      max (∑ k, a (p, k) · w (k, q) + b (0, q)) 0.
  The narrowing of the rows to sixteen bits before the product is the identity there, the accumulator is the real zero,
  and the product's contraction index is its one coordinate `k`.
-/
import proofs.«105520_j10591389352061_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The body's matrix product: rows of the block against columns of the matrix, one contracted axis of length 128. -/
abbrev prodDims : DotDims S5000x128 S128x128 S5000x128 := dot_S5000x128_S128x128_S5000x128_1_0_0_1_n_n

/-- The contraction index of the product is its one coordinate. -/
abbrev contr : prodDims.contr.Idx ≃ Fin 128 := contrEquiv1 prodDims 128 rfl rfl

/-- The left operand's row is the output's row (the one free axis of the left operand). -/
theorem lhs_row (i : S5000x128.Idx) (κ : prodDims.contr.Idx) : (prodDims.lhsIdx i κ 0).val = (i 0).val := by
  unfold DotDims.lhsIdx
  rw [dif_neg (show ¬(0 : Fin S5000x128.rank) ∈ prodDims.lhsBatch by decide),
    dif_pos (show (0 : Fin S5000x128.rank) ∈ prodDims.lhsNonContracting by decide)]
  rfl

/-- The right operand's column is the output's column (the one free axis of the right operand). -/
theorem rhs_col (i : S5000x128.Idx) (κ : prodDims.contr.Idx) : (prodDims.rhsIdx i κ 1).val = (i 1).val := by
  unfold DotDims.rhsIdx
  rw [dif_neg (show ¬(1 : Fin S128x128.rank) ∈ prodDims.rhsBatch by decide),
    dif_pos (show (1 : Fin S128x128.rank) ∈ prodDims.rhsNonContracting by decide)]
  rfl

/-- At output entry `(p, q)` and contraction coordinate `k` the product reads its left operand at `(p, k)`. -/
theorem lhs_at (p : Fin 5000) (q : Fin 128) (k : Fin 128) : prodDims.lhsIdx (ix2 p q) (contr.symm k) = ix2 p k := by
  have hk := contrEquiv1_symm_val prodDims 128 rfl rfl k
  funext a
  apply Fin.ext
  match a with
  | ⟨0, _⟩ => exact lhs_row _ _
  | ⟨1, _⟩ => exact (prodDims.lhsIdx_val_of_single rfl (ix2 p q) (contr.symm k)).trans hk

/-- … and its right operand at `(k, q)`. -/
theorem rhs_at (p : Fin 5000) (q : Fin 128) (k : Fin 128) : prodDims.rhsIdx (ix2 p q) (contr.symm k) = ix2 k q := by
  have hk := contrEquiv1_symm_val prodDims 128 rfl rfl k
  funext a
  apply Fin.ext
  match a with
  | ⟨0, _⟩ => exact (prodDims.rhsIdx_val_of_single rfl (ix2 p q) (contr.symm k)).trans hk
  | ⟨1, _⟩ => exact rhs_col _ _

/-- The product into the zero accumulator, at entry `(p, q)`: the sum over `k` of row `p` against column `q`. -/
theorem prod_at (a : FVec Ideal S5000x128 .bf16) (w : FVec Ideal S128x128 .bf16) (p : Fin 5000) (q : Fin 128) :
    FloatOps.matmul prodDims none a w (constant (F := Ideal) S5000x128 .f32 0x00000000#32) (ix2 p q)
      = ∑ k : Fin 128, a (ix2 p k) * w (ix2 k q) := by
  rw [Ideal.matmul_constant_zero_apply, ← Equiv.sum_comp contr.symm]
  refine Finset.sum_congr rfl fun k _ => ?_
  rw [lhs_at, rhs_at]

/-- THE BODY'S RESULT at entry `(p, q)` of its block, from the three blocks it loads. -/
theorem pay_at (a : FVec Ideal S5000x128 .f32) (w : FVec Ideal S128x128 .bf16) (b : FVec Ideal S1x128 .f32) (p : Fin 5000) (q : Fin 128) :
    k0_pay1 (F := Ideal) a w b (ix2 p q) = max ((∑ k : Fin 128, a (ix2 p k) * w (ix2 k q)) + b (ix2 (0 : Fin 1) q)) 0 := by
  unfold k0_pay1
  simp only [shapeCast_self]
  show max (FloatOps.matmul prodDims none (truncf .bf16 a bitsLt_bf16_f32) w (constant (F := Ideal) S5000x128 .f32 0x00000000#32) (ix2 p q)
      + broadcastTo S5000x128 b broadcasts_S1x128_S5000x128 (ix2 p q)) (Ideal.ofBits .f32 0x00000000#32) = _
  rw [prod_at, broadcastTo_1b_ab_apply, Ideal.ofBits_zero_f32]
  rfl

end Cert.KernelIdeal.Hand

end
-- ==== Proof.NodeUpdate.lean ====
/-
  The node update of a graph convolution, as ONE function of three arrays over the extended reals: for node `n` and
  output feature `f`,
      update agg w b (n, f) = max (∑ k, agg (n, k) · w (f, k) + b f) 0
  — a linear layer whose weight is read transposed (row `f` of `w` against row `n` of `agg`), a bias, a rectifier.
  Both programs of this certificate compute it from the same aggregated features `agg`; nothing here needs a
  finite entry: the sum is a sum of the same 128 products on both sides, and only the commutativity of the
  extended reals' addition (inside `Finset.sum`) is ever used to re-index it.
-/
import Idealize.ShloMosaic.PureOps.Ideal
import Idealize.ShloMosaic.Lib.ValueIdx

noncomputable section

namespace Cert.NodeUpdate

open Idealize.ShloMosaic Idealize.ShloMosaic.ValueIdx

/-- 50000 nodes, 128 features each. -/
abbrev Nodes : Shape := ⟨2, ![50000, 128]⟩
/-- The weight: 128 output features by 128 input features. -/
abbrev Weight : Shape := ⟨2, ![128, 128]⟩
/-- One bias per output feature. -/
abbrev Bias : Shape := ⟨1, ![128]⟩

/-- The rectified linear layer of the aggregated features: entry `(n, f)` is `max (∑ k, agg (n, k) · w (f, k) + b f) 0`. -/
def update (agg : FVec Ideal Nodes .f32) (w : FVec Ideal Weight .f32) (b : FVec Ideal Bias .f32) : FVec Ideal Nodes .f32 :=
  fun i => max ((∑ k : Fin 128, agg (ix2 (i 0) k) * w (ix2 (i 1) k)) + b (ix1 (i 1))) 0

/-- The same at explicit coordinates. -/
theorem update_apply (agg : FVec Ideal Nodes .f32) (w : FVec Ideal Weight .f32) (b : FVec Ideal Bias .f32) (n : Fin 50000) (f : Fin 128) :
    update agg w b (ix2 n f) = max ((∑ k : Fin 128, agg (ix2 n k) * w (ix2 f k)) + b (ix1 f)) 0 := rfl

end Cert.NodeUpdate

end
-- ==== Proof.KernelValue.lean ====
/-
  What the kernel's result array holds after the run. The grid has ten points; point `t` is handed rows
  `5000 t … 5000 t + 4999` of the aggregated features (the array the host's scatter-add wrote before the launch), the
  whole 128 × 128 matrix the host prepared (the weight transposed and narrowed to sixteen bits, which on the extended
  reals is just the transpose) and the bias as one row, and writes back rows `5000 t … 5000 t + 4999` of the result.
  So at row `n = 5000 t + p`, column `f`, the result is the body's arithmetic at `(p, f)` of those blocks,
      max (∑ k, agg (n, k) · wᵀ (k, f) + b f) 0   with   wᵀ (k, f) = w (f, k),
  which is the node update `Cert.NodeUpdate.update` at `(n, f)`; the ten blocks of rows cover the array (row `n` lies
  in block `n / 5000`), so the array ends holding the node update everywhere.
-/
import proofs.«105520_j10591389352061_2_alg».proof.Proof.Gen.KernelIdeal.Value
import proofs.«105520_j10591389352061_2_alg».proof.Proof.Payload
import proofs.«105520_j10591389352061_2_alg».proof.Proof.NodeUpdate
import Idealize.ShloMosaic.Lib.StableHlo.Run
import Idealize.ShloMosaic.Lib.Pipeline.Value
import Idealize.ShloMosaic.Lib.ValueLayout
import Idealize.ShloMosaic.Lib.Tactic

noncomputable section

namespace Cert.KernelIdeal.Hand

open Cert.KernelIdeal Cert.KernelIdeal.Gen Cert.KernelIdeal.Value
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the host writes before the launch -/

/-- The aggregated features: every edge's source row (a negative source index counted from the end) gathered from the
    feature array, and the gathered rows added into the rows their destination indices name, from zero. -/
def aggregate (x0 : (⟨S50000x128, .f32⟩ : BufTy).Contents (Elt Ideal)) (x1 x2 : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x2)
    (Host.gather gather_S50000x128_S800000x1_S800000x128_1_0_n_n_0_1_1128 x0
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1)))

/-- The first window's array, as the launch finds it, is the aggregated features of the three graph arguments. -/
theorem agg_eq (c : Dev nD) :
    (V m c main_v9 : (⟨S50000x128, .f32⟩ : BufTy).Contents (Elt Ideal))
      = aggregate (m ((c : Thread nD τ).loc main_arg0)) (m ((c : Thread nD τ).loc main_arg1)) (m ((c : Thread nD τ).loc main_arg2)) := by
  dsimp only [Gen.V, Gen.hostOps0]
  after_results <;> rfl

/-- The second window's array is the weight transposed (and narrowed, which changes no extended real). -/
theorem mat_eq (c : Dev nD) :
    (V m c main_v11 : (⟨S128x128, .bf16⟩ : BufTy).Contents (Elt Ideal))
      = (truncf .bf16 (transpose S128x128 [1, 0] (m ((c : Thread nD τ).loc main_arg3) : FVec Ideal S128x128 .f32) transposes_S128x128_S128x128_1_0) bitsLt_bf16_f32 : FVec Ideal S128x128 .bf16) := by
  dsimp only [Gen.V, Gen.hostOps0]
  after_results <;> rfl

/-- Entry `(k, f)` of that matrix is entry `(f, k)` of the weight. -/
theorem mat_at (c : Dev nD) (k f : Fin 128) :
    (V m c main_v11 : (⟨S128x128, .bf16⟩ : BufTy).Contents (Elt Ideal)) (ix2 k f)
      = (m ((c : Thread nD τ).loc main_arg3) : (⟨S128x128, .f32⟩ : BufTy).Contents (Elt Ideal)) (ix2 f k) := by
  rw [mat_eq]
  exact transpose_ix2_apply _ transposes_S128x128_S128x128_1_0 k f

/-- The third window's array is the bias laid out as one row. -/
theorem row_eq (c : Dev nD) :
    (V m c main_v12 : (⟨S1x128, .f32⟩ : BufTy).Contents (Elt Ideal))
      = shapeCast S1x128 (m ((c : Thread nD τ).loc main_arg4)) shapeCasts_S128_S1x128 := by
  dsimp only [Gen.V, Gen.hostOps0]
  after_results <;> rfl

/-- Entry `(0, f)` of that row is the bias at `f`. -/
theorem row_at (c : Dev nD) (f : Fin 128) :
    (V m c main_v12 : (⟨S1x128, .f32⟩ : BufTy).Contents (Elt Ideal)) (ix2 (0 : Fin 1) f)
      = (m ((c : Thread nD τ).loc main_arg4) : (⟨S128, .f32⟩ : BufTy).Contents (Elt Ideal)) (ix1 f) := by
  rw [row_eq]
  exact shapeCast_a_1a_apply _ shapeCasts_S128_S1x128 0 f

/-! ## The blocks a point is handed -/

/-- The printed index maps over the ten points: the first window and the result move down one block of rows per point,
    the matrix and the bias row stay where they are. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := Nat.lt_of_lt_of_eq t.isLt N_0

/-- The arrays as the launch finds them depend on the buffer alone: at two names of one buffer they are one array. -/
theorem V_heq (c : Dev nD) (b b' : Ref sig .tc) (h : b = b') : HEq (V m c b) (V m c b') := by
  subst h
  rfl

/-- The first window's array is the buffer the host's scatter-add wrote, -/
theorem V_win0 (c : Dev nD) :
    (V m c (Pipeline.arrRef spec0 (0 : Fin cfg0.W)) : (⟨S50000x128, .f32⟩ : BufTy).Contents (Elt Ideal)) = V m c main_v9 :=
  eq_of_heq (V_heq m c (Pipeline.arrRef spec0 (0 : Fin cfg0.W)) main_v9 rfl)

/-- the second window's the buffer holding the transposed weight, -/
theorem V_win1 (c : Dev nD) :
    (V m c (Pipeline.arrRef spec0 (1 : Fin cfg0.W)) : (⟨S128x128, .bf16⟩ : BufTy).Contents (Elt Ideal)) = V m c main_v11 :=
  eq_of_heq (V_heq m c (Pipeline.arrRef spec0 (1 : Fin cfg0.W)) main_v11 rfl)

/-- the third window's the buffer holding the bias row. -/
theorem V_win2 (c : Dev nD) :
    (V m c (Pipeline.arrRef spec0 (2 : Fin cfg0.W)) : (⟨S1x128, .f32⟩ : BufTy).Contents (Elt Ideal)) = V m c main_v12 :=
  eq_of_heq (V_heq m c (Pipeline.arrRef spec0 (2 : Fin cfg0.W)) main_v12 rfl)

/-- A window's block at a point is its array read through the point's rectangle, whatever name the array goes by. -/
theorem iblk_of (c : Dev nD) (w : Fin cfg0.W) (t : Fin cfg0.N)
    (A : Buf (Elt Ideal) ((c : Thread nD τ).loc (Pipeline.arrRef spec0 w))) (h : V m c (Pipeline.arrRef spec0 w) = A) :
    iblk m c w t = ((cfg0.win w).blk t).view.read (Elt Ideal) A := by
  subst h
  rfl

/-- Point `t`'s block of aggregated features, -/
theorem iblk0_eq (c : Dev nD) (t : Fin cfg0.N) :
    iblk m c 0 t = ((cfg0.win 0).blk t).view.read (Elt Ideal) (V m c main_v9) :=
  iblk_of m c 0 t (V m c main_v9) (V_win0 m c)

/-- of the matrix, -/
theorem iblk1_eq (c : Dev nD) (t : Fin cfg0.N) :
    iblk m c 1 t = ((cfg0.win 1).blk t).view.read (Elt Ideal) (V m c main_v11) :=
  iblk_of m c 1 t (V m c main_v11) (V_win1 m c)

/-- and of the bias row. -/
theorem iblk2_eq (c : Dev nD) (t : Fin cfg0.N) :
    iblk m c 2 t = ((cfg0.win 2).blk t).view.read (Elt Ideal) (V m c main_v12) :=
  iblk_of m c 2 t (V m c main_v12) (V_win2 m c)

/-- Point `t`'s block of the first window sits at rows `5000 t …` of its array: entry `(p, k)` of the block is entry
    `(5000 t + p, k)` of the array. -/
theorem rows_emb (t : Fin cfg0.N) (p : Fin 5000) (k : Fin 128) (n : Fin 50000) (hn : n.val = t.val * 5000 + p.val) :
    ((cfg0.win 0).blk t).view.emb (ix2 p k) = (ix2 n k : S50000x128.Idx) := by
  obtain ⟨e0, e1, -⟩ := idx_facts t
  funext a
  apply Fin.ext
  match a with
  | ⟨0, _⟩ => show win0_0.index t (0 : Fin 2) * 5000 + 1 * p.val = n.val; omega
  | ⟨1, _⟩ => show win0_0.index t (1 : Fin 2) * 128 + 1 * k.val = k.val; omega

/-- So any array read through that block at `(p, k)` is the array at `(5000 t + p, k)`. -/
theorem read_rows (c : Dev nD) (A : Buf (Elt Ideal) ((c : Thread nD τ).loc main_v9)) (t : Fin cfg0.N) (p : Fin 5000) (k : Fin 128)
    (n : Fin 50000) (hn : n.val = t.val * 5000 + p.val) :
    (((cfg0.win 0).blk t).view.read (Elt Ideal) A : FVec Ideal S5000x128 .f32) (ix2 p k)
      = (A : (⟨S50000x128, .f32⟩ : BufTy).Contents (Elt Ideal)) (ix2 n k) := by
  rw [View.read_apply, rows_emb t p k n hn]
  rfl

/-- The second window's one block is its whole array. -/
theorem mat_emb (t : Fin cfg0.N) (k f : Fin 128) :
    ((cfg0.win 1).blk t).view.emb (ix2 k f) = (ix2 k f : S128x128.Idx) := by
  obtain ⟨-, -, e2, e3, -⟩ := idx_facts t
  funext a
  apply Fin.ext
  match a with
  | ⟨0, _⟩ => show win0_1.index t (0 : Fin 2) * 128 + 1 * k.val = k.val; omega
  | ⟨1, _⟩ => show win0_1.index t (1 : Fin 2) * 128 + 1 * f.val = f.val; omega

/-- So any array read through it is the array itself. -/
theorem read_mat (c : Dev nD) (A : Buf (Elt Ideal) ((c : Thread nD τ).loc main_v11)) (t : Fin cfg0.N) (k f : Fin 128) :
    (((cfg0.win 1).blk t).view.read (Elt Ideal) A : FVec Ideal S128x128 .bf16) (ix2 k f)
      = (A : (⟨S128x128, .bf16⟩ : BufTy).Contents (Elt Ideal)) (ix2 k f) := by
  rw [View.read_apply, mat_emb t k f]
  rfl

/-- The third window's one block is its whole array, the bias row. -/
theorem row_emb (t : Fin cfg0.N) (f : Fin 128) :
    ((cfg0.win 2).blk t).view.emb (ix2 (0 : Fin 1) f) = (ix2 (0 : Fin 1) f : S1x128.Idx) := by
  obtain ⟨-, -, -, -, e4, e5, -⟩ := idx_facts t
  funext a
  apply Fin.ext
  match a with
  | ⟨0, _⟩ => show win0_2.index t (0 : Fin 2) * 1 + 1 * 0 = 0; omega
  | ⟨1, _⟩ => show win0_2.index t (1 : Fin 2) * 128 + 1 * f.val = f.val; omega

/-- So any array read through it is the array itself. -/
theorem read_row (c : Dev nD) (A : Buf (Elt Ideal) ((c : Thread nD τ).loc main_v12)) (t : Fin cfg0.N) (f : Fin 128) :
    (((cfg0.win 2).blk t).view.read (Elt Ideal) A : FVec Ideal S1x128 .f32) (ix2 (0 : Fin 1) f)
      = (A : (⟨S1x128, .f32⟩ : BufTy).Contents (Elt Ideal)) (ix2 (0 : Fin 1) f) := by
  rw [View.read_apply, row_emb t f]
  rfl

/-! ## What a point writes back, and the whole array -/

/-- The body's arithmetic on blocks read off three arrays, at entry `(p, f)` of point `t`'s block, is the node update of
    the three arrays at row `5000 t + p`, column `f` — for ANY aggregated features `A`, weight `W` and bias `B`, the matrix
    handed to the body being `W` transposed and the row `B` laid out as one row. -/
theorem block_at (c : Dev nD) (A : Buf (Elt Ideal) ((c : Thread nD τ).loc main_v9))
    (W : Buf (Elt Ideal) ((c : Thread nD τ).loc main_arg3)) (B : Buf (Elt Ideal) ((c : Thread nD τ).loc main_arg4))
    (t : Fin cfg0.N) (p : Fin 5000) (f : Fin 128) (n : Fin 50000) (hn : n.val = t.val * 5000 + p.val) :
    k0_pay1 (F := Ideal) (((cfg0.win 0).blk t).view.read (Elt Ideal) A)
        (((cfg0.win 1).blk t).view.read (Elt Ideal)
          (truncf .bf16 (transpose S128x128 [1, 0] (W : FVec Ideal S128x128 .f32) transposes_S128x128_S128x128_1_0) bitsLt_bf16_f32 : FVec Ideal S128x128 .bf16))
        (((cfg0.win 2).blk t).view.read (Elt Ideal) (shapeCast S1x128 (B : FVec Ideal S128 .f32) shapeCasts_S128_S1x128 : FVec Ideal S1x128 .f32))
        (ix2 p f)
      = Cert.NodeUpdate.update A W B (ix2 n f) := by
  rw [Cert.NodeUpdate.update_apply]
  refine (pay_at (((cfg0.win 0).blk t).view.read (Elt Ideal) A)
    (((cfg0.win 1).blk t).view.read (Elt Ideal)
      (truncf .bf16 (transpose S128x128 [1, 0] (W : FVec Ideal S128x128 .f32) transposes_S128x128_S128x128_1_0) bitsLt_bf16_f32 : FVec Ideal S128x128 .bf16))
    (((cfg0.win 2).blk t).view.read (Elt Ideal) (shapeCast S1x128 (B : FVec Ideal S128 .f32) shapeCasts_S128_S1x128 : FVec Ideal S1x128 .f32))
    p f).trans ?_
  congr 1
  congr 1
  · refine Finset.sum_congr rfl fun k _ => ?_
    rw [read_rows c A t p k n hn, read_mat c _ t k f]
    congr 1
    exact transpose_ix2_apply (W : FVec Ideal S128x128 .f32) transposes_S128x128_S128x128_1_0 k f
  · rw [read_row c _ t f]
    exact shapeCast_a_1a_apply (B : FVec Ideal S128 .f32) shapeCasts_S128_S1x128 0 f

/-- The result array as one function of the aggregated features as the launch finds them, the weight and the bias. -/
abbrev result (c : Dev nD) : FVec Ideal Cert.NodeUpdate.Nodes .f32 :=
  Cert.NodeUpdate.update (V m c main_v9) (m ((c : Thread nD τ).loc main_arg3)) (m ((c : Thread nD τ).loc main_arg4))

/-- The result window's block at point `t` sits at rows `5000 t …` of the result array. -/
theorem out_emb (t : Fin cfg0.N) (p : Fin 5000) (f : Fin 128) (n : Fin 50000) (hn : n.val = t.val * 5000 + p.val) :
    ((cfg0.win 3).blk t).view.emb (ix2 p f) = (ix2 n f : S50000x128.Idx) := by
  obtain ⟨-, -, -, -, -, -, e6, e7⟩ := idx_facts t
  funext a
  apply Fin.ext
  match a with
  | ⟨0, _⟩ => show win0_3.index t (0 : Fin 2) * 5000 + 1 * p.val = n.val; omega
  | ⟨1, _⟩ => show win0_3.index t (1 : Fin 2) * 128 + 1 * f.val = f.val; omega

/-- So any array read through that block at `(p, f)` is the array at `(5000 t + p, f)`. -/
theorem read_out (c : Dev nD) (G : Buf (Elt Ideal) ((c : Thread nD τ).loc main_v13)) (t : Fin cfg0.N) (p : Fin 5000) (f : Fin 128)
    (n : Fin 50000) (hn : n.val = t.val * 5000 + p.val) :
    (((cfg0.win 3).blk t).view.read (Elt Ideal) G : FVec Ideal S5000x128 .f32) (ix2 p f)
      = (G : (⟨S50000x128, .f32⟩ : BufTy).Contents (Elt Ideal)) (ix2 n f) := by
  rw [View.read_apply, out_emb t p f n hn]
  rfl

/-- The result window is written back whole: what is written back of a block is the block. -/
theorem cut_at (t : Fin cfg0.N) (X : FVec Ideal S5000x128 .f32) (j : S5000x128.Idx) :
    (cfg0.win 3).cut (grid0.coords t) X j = X j := rfl

/-- WHAT POINT `t` WRITES BACK is its block of rows of `result`. -/
theorem flushed_eq (c : Dev nD) (t : Fin cfg0.N) :
    (dats m 0 c).flushed 3 t = ((cfg0.win 3).blk t).view.read (Elt Ideal)
      (Cert.NodeUpdate.update (V m c main_v9) (m ((c : Thread nD τ).loc main_arg3)) (m ((c : Thread nD τ).loc main_arg4))) := by
  show (cfg0.win 3).cut (grid0.coords t) ((dats m 0 c).after 3 t) = _
  rw [after0_3]
  unfold out0_3
  rw [View.canon_unit_zero hz]
  simp only [View.ld_unit_zero (S := S5000x128) hz, View.ld_unit_zero (S := S128x128) hz, View.ld_unit_zero (S := S1x128) hz]
  rw [iblk0_eq m c t, iblk1_eq m c t, iblk2_eq m c t, mat_eq m c, row_eq m c]
  generalize V m c main_v9 = A
  generalize m ((c : Thread nD τ).loc main_arg3) = W
  generalize m ((c : Thread nD τ).loc main_arg4) = B
  have ht := point_lt t
  refine funext fun (j : S5000x128.Idx) => ?_
  obtain ⟨p, q, rfl⟩ : ∃ (p : Fin 5000) (q : Fin 128), j = ix2 p q := ⟨j 0, j 1, eq_ix2 j⟩
  have hn : t.val * 5000 + p.val < 50000 := by have := p.isLt; omega
  rw [cut_at t _ (ix2 p q), read_out c (Cert.NodeUpdate.update A W B) t p q ⟨t.val * 5000 + p.val, hn⟩ rfl]
  exact block_at c A W B t p q ⟨t.val * 5000 + p.val, hn⟩ rfl

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- THE COVER: row `n` of the array lies in the block of point `n / 5000`. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the run is `result`. -/
theorem final (c : Dev nD) : (dats m 0 c).arrAt 3 cfg0.N = result m c :=
  (dats m 0 c).arrAt_eq_of_cover 3 (result m c) (fun t _ => flushed_eq m c t) covered

/-- The kernel's run, read: the result array at the node update, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Hand

end
-- ==== Proof.RefSide.lean ====
/-
  The reference, read at an index: its last stage — the maximum with zero of the matrix product of the aggregated
  features with the transposed weight, plus the bias broadcast along the nodes — is the node update
  `Cert.NodeUpdate.update` of the aggregated features (the stage the scatter-add writes), the weight and the bias.
  Entry `(n, f)` of the product is `∑ k, agg (n, k) · wᵀ (k, f)`, and `wᵀ (k, f) = w (f, k)`; the bias is read at `f`
  through its two broadcasts; the zero word is the real zero.
-/
import proofs.«105520_j10591389352061_2_alg».proof.Proof.Gen.ReferenceIdeal.Read
import proofs.«105520_j10591389352061_2_alg».proof.Proof.NodeUpdate
import Idealize.ShloMosaic.PureOps.Ideal.Laws

noncomputable section

namespace Cert.ReferenceIdeal.Hand

open Cert.ReferenceIdeal Cert.ReferenceIdeal.Gen Cert.ReferenceIdeal.Read
open Idealize.ShloMosaic Idealize.ShloMosaic.ValueIdx

/-- The reference's result stage is the node update of the scatter-add's stage, the weight and the bias. -/
theorem result_eq_update (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal)) :
    val_main_v15 (F := Ideal) x0 x1 x2 x3 x4 = Cert.NodeUpdate.update (val_main_v9 (F := Ideal) x0 x1 x2) x3 x4 := by
  funext i
  -- the product's left factor is read at (n, k), the transposed weight at (k, f), that is the weight at (f, k)
  have el : ∀ k : Fin 128, lidx_main_v11 i k = ix2 (i 0) k := fun k =>
    funext fun a => Fin.ext (by match a with | ⟨0, _⟩ => rfl | ⟨1, _⟩ => rfl)
  have er : ∀ k : Fin 128, idx_main_v10 (ridx_main_v11 i k) = ix2 (i 1) k := fun k =>
    funext fun a => Fin.ext (by match a with | ⟨0, _⟩ => rfl | ⟨1, _⟩ => rfl)
  -- the bias, broadcast to a row and then along the nodes, is read at f
  have eb : idx_main_v12 (idx_main_v13 i) = ix1 (i 1) :=
    funext fun a => Fin.ext (by match a with | ⟨0, _⟩ => rfl)
  rw [val_main_v15_apply, val_main_v14_apply, val_main_v11_apply, val_main_v13_apply, val_main_v12_apply,
    val_main_call0_v0_apply, val_main_call0_cst_apply]
  simp only [val_main_v10_apply, el, er, eb, Ideal.maximumf_def, Ideal.addf_def, Ideal.ofBits_def, Ideal.ofBits_zero_f32]
  rfl

end Cert.ReferenceIdeal.Hand

end
-- ==== Proof.lean ====
/-
  A graph convolution's node update, kernel against reference, on the extended reals.

  Both programs first aggregate: every edge's source row is gathered from the feature array (a negative source index
  counted from the end, as array indexing does) and the gathered rows are added into the rows their destination indices
  name, starting from zero. This is the same chain of host operations in the two programs, applied to the same
  arguments, so it is carried as ONE array `agg` and never opened.

  The reference then forms `max (agg · wᵀ + b) 0` on the host: a matrix product with the transposed weight, the bias
  broadcast along the nodes, the maximum with zero. The kernel hands the same three things to a grid of ten points —
  point `t` gets rows `5000 t … 5000 t + 4999` of `agg`, the whole transposed weight narrowed to sixteen bits (the identity
  on extended reals) and the bias as one row — and each point writes its rows of `max (block · wᵀ + b) 0`.
  At row `n`, column `f` both are
      max (∑ k, agg (n, k) · w (f, k) + b f) 0,
  the same 128 products summed: no law of the extended reals beyond the commutativity inside a finite sum is used, and
  the precondition (finite inputs) is never opened.

  `Cert.NodeUpdate.update` is that function; `Cert.ReferenceIdeal.Hand.result_eq_update` reads the reference's last stage
  as it; `Cert.KernelIdeal.Hand.run` reads the kernel's result array as it, block by block and then by the cover of the
  array by the ten blocks of rows. The three frames are the generated ones (the reference's is its generated run with
  the result dropped); nothing was rewritten by the idealization, so there is nothing to preserve.
-/
import proofs.«105520_j10591389352061_2_alg».proof.Defs
import proofs.«105520_j10591389352061_2_alg».proof.Proof.Gen.Kernel
import proofs.«105520_j10591389352061_2_alg».proof.Proof.Gen.Kernel.Skeleton
import proofs.«105520_j10591389352061_2_alg».proof.Proof.Gen.Kernel.Launch
import proofs.«105520_j10591389352061_2_alg».proof.Proof.Gen.Kernel.Points
import proofs.«105520_j10591389352061_2_alg».proof.Proof.Gen.Kernel.Frame
import proofs.«105520_j10591389352061_2_alg».proof.Proof.Gen.KernelIdeal
import proofs.«105520_j10591389352061_2_alg».proof.Proof.Gen.KernelIdeal.Skeleton
import proofs.«105520_j10591389352061_2_alg».proof.Proof.Gen.KernelIdeal.Launch
import proofs.«105520_j10591389352061_2_alg».proof.Proof.Gen.KernelIdeal.Points
import proofs.«105520_j10591389352061_2_alg».proof.Proof.Gen.KernelIdeal.Frame
import proofs.«105520_j10591389352061_2_alg».proof.Proof.Gen.ReferenceIdeal
import proofs.«105520_j10591389352061_2_alg».proof.Proof.Gen.Pre_finite_inputs
import proofs.«105520_j10591389352061_2_alg».proof.Proof.Gen.KernelIdeal.Value
import proofs.«105520_j10591389352061_2_alg».proof.Proof.Gen.ReferenceIdeal.Run
import proofs.«105520_j10591389352061_2_alg».proof.Proof.Gen.ReferenceIdeal.Read
import proofs.«105520_j10591389352061_2_alg».proof.Proof.KernelValue
import proofs.«105520_j10591389352061_2_alg».proof.Proof.RefSide
import Idealize.ShloMosaic.Adequacy
import Idealize.ShloMosaic.Init

noncomputable section

namespace Cert.Proof

open Idealize.ShloMosaic Idealize.SL.Sem

/-- The two programs aggregate alike: the kernel's host operations before the launch and the reference's first
    operations are the same gather and scatter-add of the same arguments (the two programs' dimension records have
    the same fields). -/
theorem aggregate_eq (x0 : (⟨Cert.KernelIdeal.S50000x128, .f32⟩ : BufTy).Contents (Elt Ideal))
    (x1 x2 : (⟨Cert.KernelIdeal.S800000, .i32⟩ : BufTy).Contents (Elt Ideal)) :
    Cert.KernelIdeal.Hand.aggregate x0 x1 x2 = Cert.ReferenceIdeal.Read.val_main_v9 (F := Ideal) x0 x1 x2 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the node update of the aggregated features, the
    weight and the bias: the kernel by its blocks of rows, the reference by its last stage read at an index. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v15_eq, Cert.ReferenceIdeal.Hand.result_eq_update, a0, a1, a2, a3, a4,
    ← aggregate_eq, ← Cert.KernelIdeal.Hand.agg_eq m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
